-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩
abbrev S2048x2048 : Shape := ⟨2, ![2048, 2048]⟩
abbrev S1024x2048 : Shape := ⟨2, ![1024, 2048]⟩
abbrev S1x1024 : Shape := ⟨2, ![1, 1024]⟩
abbrev S2048x1024 : Shape := ⟨2, ![2048, 1024]⟩

abbrev nBuf : Space → Nat
  | .hbm => 14
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .bf16⟩
  | .hbm, ⟨4, _⟩ => ⟨S_, .f32⟩
  | .hbm, ⟨5, _⟩ => ⟨S4096x4096, .f32⟩
  | .hbm, ⟨6, _⟩ => ⟨S4096x4096, .i1⟩
  | .hbm, ⟨7, _⟩ => ⟨S_, .bf16⟩
  | .hbm, ⟨8, _⟩ => ⟨S_, .bf16⟩
  | .hbm, ⟨9, _⟩ => ⟨S4096x4096, .bf16⟩
  | .hbm, ⟨10, _⟩ => ⟨S4096x4096, .bf16⟩
  | .hbm, ⟨11, _⟩ => ⟨S4096x4096, .bf16⟩
  | .hbm, ⟨12, _⟩ => ⟨S1x4096, .f32⟩
  | .hbm, ⟨13, _⟩ => ⟨S8192x4096, .f32⟩
  | .local _ .vmem, ⟨0, _⟩ => ⟨S2048x2048, .bf16⟩
  | .local _ .vmem, ⟨1, _⟩ => ⟨S2048x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1x1024, .f32⟩
  | .local _ .vmem, ⟨5, _⟩ => ⟨S1x1024, .f32⟩
  | .local _ .vmem, ⟨6, _⟩ => ⟨S2048x1024, .f32⟩
  | .local _ .vmem, ⟨7, _⟩ => ⟨S2048x1024, .f32⟩
  | .local _ .vmem, ⟨8, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_cst_1 : Ref sig .tc := ⟨.hbm, 8, rfl⟩
abbrev main_call0_v0 : Ref sig .tc := ⟨.hbm, 9, rfl⟩
abbrev main_call0_v1 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond2 (i : grid0.Coords) : BitVec 1 :=
  let arg2 : BitVec 32 := BitVec.ofNat 32 (i 2).val
  let c1_i32 : BitVec 32 := 1#32
  let v13 : BitVec 1 := Scalar.cmpi .eq arg2 c1_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  bitsLt_bf16_f32 : FTy.bits .bf16 < FTy.bits .f32
  bcast_S_S4096x4096 : S_.BroadcastsInDim S4096x4096 (![] : Fin 0 → Fin S4096x4096.rank)
  shapeCasts_S4096_S1x4096 : S4096.ShapeCasts S1x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x2048_S1024x2048_S2048x1024_1_1_0_0_n_n_wf : DotDims.WF S2048x2048 S1024x2048 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x2048.size a ≤ S8192x4096.size a
  hwx0_0 : ∀ i : grid0.Coords, EltTy.bits .bf16 = 32 ∨ (Rect.block (s := S8192x4096) S2048x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x2048.size a ≤ S4096x4096.size a
  hwx0_1 : ∀ i : grid0.Coords, EltTy.bits .bf16 = 32 ∨ (Rect.block (s := S4096x4096) S1024x2048.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x4096.size a
  hwx0_2 : ∀ i : grid0.Coords, EltTy.bits .f32 = 32 ∨ (Rect.block (s := S1x4096) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1024.size a ≤ S8192x4096.size a
  hwx0_3 : ∀ i : grid0.Coords, EltTy.bits .f32 = 32 ∨ (Rect.block (s := S8192x4096) S2048x1024.size (cc0_transform_3 i) (hinb0_3 i)).WholeWords (EltTy.packing .f32)

variable [Facts₀]

def dot_S2048x2048_S1024x2048_S2048x1024_1_1_0_0_n_n : DotDims S2048x2048 S1024x2048 S2048x1024 where
  lhsContracting := [1]
  rhsContracting := [1]
  lhsNonContracting := [0]
  rhsNonContracting := [0]
  lhsBatch := []
  rhsBatch := []
  wf := dot_S2048x2048_S1024x2048_S2048x1024_1_1_0_0_n_n_wf

abbrev win0_0 : Pipeline.Window sig grid0 :=
  Pipeline.Window.ofSpec (Memref.whole main_v0) S2048x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v5) S2048x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩
abbrev S1x4096 : Shape := ⟨2, ![1, 4096]⟩

abbrev nBuf : Space → Nat
  | .hbm => 13
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S_, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S8192x4096, .f32⟩
  | .hbm, ⟨10, _⟩ => ⟨S1x4096, .f32⟩
  | .hbm, ⟨11, _⟩ => ⟨S8192x4096, .f32⟩
  | .hbm, ⟨12, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_call0_v0 : Ref sig .tc := ⟨.hbm, 4, rfl⟩
abbrev main_call0_v1 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Binarize.lean ====
/-
  Binarising a weight, on the extended reals.

  One program writes "1 where w > 0, else 0" (a comparison, then a select between the two constants);
  the other writes "sign (max 0 w)".  On every extended real w these are one function:
    0 < w  (w = +inf included):  the comparison holds, 1;   max 0 w = w and sign w = 1.
    w ≤ 0  (w = -inf included):  the comparison fails, 0;   max 0 w = 0 and sign 0 = 0.
  No finiteness is needed.
-/
import Idealize.ShloMosaic.PureOps.Ideal
import Idealize.ShloMosaic.PureOps.Ideal.Laws

noncomputable section

namespace Cert.Bridge

open Idealize.ShloMosaic

/-- The binarised weight: 1 for a positive weight, 0 otherwise. -/
def bin (w : EReal) : EReal := Ideal.sign (max 0 w)

/-- "1 where 0 < w, else 0" is the sign of max 0 w, for every extended real w. -/
theorem select_gt_eq_bin (w : EReal) :
    Scalar.select (Ideal.cmp .ogt w 0) (1 : EReal) 0 = bin w := by
  unfold bin
  by_cases h : 0 < w
  · rw [max_eq_right h.le, Ideal.sign_of_pos h]
    simp [Scalar.select, Ideal.cmp, h]
  · rw [max_eq_left (not_lt.mp h), Ideal.sign_zero]
    simp [Scalar.select, Ideal.cmp, h]

end Cert.Bridge

end
-- ==== Proof.BinLinear.lean ====
/-
  The specification: a linear layer with binarised weights.

    out[n, o] = (sum over i < 4096 of X[n, i] · bin(W[o, i])) + b[o],     bin w = 1 if w > 0 else 0,

  over the extended reals, for X : [8192, 4096], W : [4096, 4096] (stored [out, in]), b : [4096].

  The sum over the 4096 input features may be taken in two halves of 2048, the second added onto the
  first: that is only associativity of + (the extended reals are a commutative monoid under +), so
  no finiteness of the entries is needed.
-/
import Idealize.ShloMosaic.Lib.ValueIdx
import proofs.«153271_j21861383537186_2_alg».proof.Proof.Binarize

noncomputable section

namespace Cert.Bridge

open Idealize.ShloMosaic Idealize.ShloMosaic.ValueIdx

/-- Entry (n, o) of the layer: row n of X against row o of the binarised W, plus b[o]. -/
def entry (X : (⟨2, ![8192, 4096]⟩ : Shape).Idx → EReal) (W : (⟨2, ![4096, 4096]⟩ : Shape).Idx → EReal)
    (b : (⟨1, ![4096]⟩ : Shape).Idx → EReal) (n : Fin 8192) (o : Fin 4096) : EReal :=
  (∑ i : Fin 4096, X (ix2 n i) * bin (W (ix2 o i))) + b (ix1 o)

/-- The whole result array. -/
def binLinear (X : (⟨2, ![8192, 4096]⟩ : Shape).Idx → EReal) (W : (⟨2, ![4096, 4096]⟩ : Shape).Idx → EReal)
    (b : (⟨1, ![4096]⟩ : Shape).Idx → EReal) : (⟨2, ![8192, 4096]⟩ : Shape).Idx → EReal :=
  fun j => entry X W b (j 0) (j 1)

/-- Feature i of the first half, and of the second half, as a feature among the 4096. -/
abbrev lo (i : Fin 2048) : Fin 4096 := ⟨i.val, by omega⟩
abbrev hi (i : Fin 2048) : Fin 4096 := ⟨2048 + i.val, by omega⟩

/-- A sum over the 4096 features is the sum over the first 2048 plus the sum over the last 2048. -/
theorem sum_halves (f : Fin 4096 → EReal) :
    ∑ i : Fin 4096, f i = (∑ i : Fin 2048, f (lo i)) + ∑ i : Fin 2048, f (hi i) :=
  Fin.sum_univ_add (a := 2048) (b := 2048) f

/-- Accumulating from zero, first half then second half, then adding β: the whole sum plus β. -/
theorem two_steps (f : Fin 4096 → EReal) (β : EReal) :
    ((0 + ∑ i : Fin 2048, f (lo i)) + ∑ i : Fin 2048, f (hi i)) + β = (∑ i : Fin 4096, f i) + β := by
  rw [zero_add, ← sum_halves]

end Cert.Bridge

end
-- ==== Proof.Pieces.lean ====
/-
  What one run of the body leaves behind, as values.

  The body keeps a running block "acc" (2048 x 1024) in a scratch buffer between grid points.
    * At a first step (k = 0) it stores the zero block, reads it back, and stores
        acc := zero + x · wᵀ            (x the 2048 x 2048 block of X, w the 1024 x 2048 block of the binarised W).
    * At a last step (k = 1) it stores
        acc := acc + x · wᵀ
      and then writes  acc + bias row  into the output block.
  Each store covers its whole buffer, so what a buffer holds afterwards is the payload of the last store into it,
  with every load replaced by what the buffer it reads held.
-/
import proofs.«153271_j21861383537186_2_alg».proof.Proof.Gen.KernelIdeal.Frame
import Idealize.ShloMosaic.Lib.Pipeline.Value
import Idealize.ShloMosaic.Lib.Tactic

noncomputable section

namespace Cert.KernelIdeal.Pieces

open Idealize.ShloMosaic Idealize.ShloMosaic.TcCoe Idealize.SL.Sem
open Cert.KernelIdeal Cert.KernelIdeal.Gen

variable {F : FTy → Type} [FloatOps F]

theorem hz : (![0, 0] : Fin 2 → Nat) = fun _ => 0 := funext fun a => by fin_cases a <;> rfl

/-- A first step leaves  zero + x · wᵀ  in the scratch. -/
theorem scratch_first (c : Dev nD) (i : grid0.Coords)
    (a3 : Memref sig .tc .vmem S2048x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : cond0_0 i) (hc1 : ¬cond0_1 i)
    (x0 : Vec F S2048x2048 .bf16) (x1 : Vec F S1024x2048 .bf16) (x2 : Vec F S1x1024 .f32) :
    sout0_A_0 c i a3 h3 a4 h4 a5 h5 a6 h6 a7 h7 hc0 hc1 x0 x1 x2 = k0_pay2 x0 x1 (k0_pay1 (F := F)) := by
  unfold sout0_A_0
  rw [View.read_writes_eq_canon _ _ _ (scover0_A_0 c i a3 h3 a4 h4 a5 h5 a6 h6 a7 h7 hc0 hc1 x0 x1 x2)]
  unfold kernelRun0_A
  dsimp only
  sl_unfold_words
  rw [View.canon_cons_unit_zero (S := S2048x1024) hz, View.readCov_unit_zero (S := S2048x1024) _ hz]
  simp only [View.readAt_eq_ld, h3.read_unread, h4.read_unread, View.ld_unit_zero (S := S2048x2048) hz,
    View.ld_unit_zero (S := S1024x2048) hz]

/-- A last step, over a scratch holding acc, leaves  acc + x · wᵀ  in the scratch. -/
theorem scratch_next (c : Dev nD) (i : grid0.Coords)
    (a3 : Memref sig .tc .vmem S2048x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : ¬cond0_0 i) (hc1 : cond0_1 i)
    (x0 : Vec F S2048x2048 .bf16) (x1 : Vec F S1024x2048 .bf16) (x2 : Vec F S1x1024 .f32) (acc : Vec F S2048x1024 .f32) :
    sout0_B_0 c i a3 h3 a4 h4 a5 h5 a6 h6 a7 h7 hc0 hc1 x0 x1 x2 acc = k0_pay2 x0 x1 acc := by
  unfold sout0_B_0
  rw [View.read_writes_eq_canon _ _ _ (scover0_B_0 c i a3 h3 a4 h4 a5 h5 a6 h6 a7 h7 hc0 hc1 x0 x1 x2 acc)]
  unfold kernelRun0_B
  dsimp only
  sl_unfold_words
  rw [View.canon_unit_zero hz]
  simp only [View.readAt_eq_ld, h3.read_unread, h4.read_unread, h7.read_unread, View.ld_unit_zero (S := S2048x2048) hz,
    View.ld_unit_zero (S := S1024x2048) hz, View.ld_unit_zero (S := S2048x1024) hz]

/-- ... and writes  (acc + x · wᵀ) + bias row  into the output block. -/
theorem out_last (c : Dev nD) (i : grid0.Coords)
    (a3 : Memref sig .tc .vmem S2048x2048 .bf16) (h3 : a3.IsWhole) (a4 : Memref sig .tc .vmem S1024x2048 .bf16) (h4 : a4.IsWhole)
    (a5 : Memref sig .tc .vmem S1x1024 .f32) (h5 : a5.IsWhole) (a6 : Memref sig .tc .vmem S2048x1024 .f32) (h6 : a6.IsWhole)
    (a7 : Memref sig .tc .vmem S2048x1024 .f32) (h7 : a7.IsWhole) (hc0 : ¬cond0_0 i) (hc1 : cond0_1 i)
    (x0 : Vec F S2048x2048 .bf16) (x1 : Vec F S1024x2048 .bf16) (x2 : Vec F S1x1024 .f32) (acc : Vec F S2048x1024 .f32) :
    out0_B_3 c i a3 h3 a4 h4 a5 h5 a6 h6 a7 h7 hc0 hc1 x0 x1 x2 acc = k0_pay3 (k0_pay2 x0 x1 acc) x2 := by
  unfold out0_B_3
  rw [View.read_writes_eq_canon _ _ _ (cover0_B_3 c i a3 h3 a4 h4 a5 h5 a6 h6 a7 h7 hc0 hc1 x0 x1 x2 acc)]
  unfold kernelRun0_B
  dsimp only
  sl_unfold_words
  rw [View.canon_unit_zero hz, View.readCov_unit_zero (S := S2048x1024) _ hz]
  simp only [View.readAt_eq_ld, h3.read_unread, h4.read_unread, h5.read_unread, h7.read_unread,
    View.ld_unit_zero (S := S2048x2048) hz, View.ld_unit_zero (S := S1024x2048) hz,
    View.ld_unit_zero (S := S2048x1024) hz, View.ld_unit_zero (S := S1x1024) hz]

end Cert.KernelIdeal.Pieces

end
-- ==== Proof.Payload.lean ====
/-
  The body's arithmetic, entry by entry, on the extended reals.

  With x a 2048 x 2048 block, w a 1024 x 2048 block, acc a 2048 x 1024 block and β a 1 x 1024 row:
    zero block          (p, q)  =  0
    acc + x · wᵀ        (p, q)  =  acc (p, q) + sum over k < 2048 of x (p, k) · w (q, k)
    acc + β broadcast   (p, q)  =  acc (p, q) + β (0, q)
  The matrix product contracts the second axis of both operands (w is stored [out, in]), into a zero accumulator.
-/
import proofs.«153271_j21861383537186_2_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Payload

open Idealize.ShloMosaic Idealize.ShloMosaic.ValueIdx
open Cert.KernelIdeal Cert.KernelIdeal.Gen

/-- The zero block is zero at every entry. -/
theorem zero_block (j : S2048x1024.Idx) : k0_pay1 (F := Ideal) j = 0 := by
  unfold k0_pay1
  rw [shapeCast_self]
  exact Ideal.ofBits_zero_f32

/-- The dimension numbers of the body's matrix product: both operands contract their axis 1. -/
theorem lhs_row (j : S2048x1024.Idx) (q : dot_S2048x2048_S1024x2048_S2048x1024_1_1_0_0_n_n.contr.Idx) :
    (dot_S2048x2048_S1024x2048_S2048x1024_1_1_0_0_n_n.lhsIdx j q 0).val = (j 0).val := by
  unfold DotDims.lhsIdx
  rw [dif_neg (show ¬(0 : Fin S2048x2048.rank) ∈ dot_S2048x2048_S1024x2048_S2048x1024_1_1_0_0_n_n.lhsBatch by decide), dif_pos (show (0 : Fin S2048x2048.rank) ∈ dot_S2048x2048_S1024x2048_S2048x1024_1_1_0_0_n_n.lhsNonContracting by decide)]
  rfl
theorem lhs_col (j : S2048x1024.Idx) (q : dot_S2048x2048_S1024x2048_S2048x1024_1_1_0_0_n_n.contr.Idx) :
    (dot_S2048x2048_S1024x2048_S2048x1024_1_1_0_0_n_n.lhsIdx j q 1).val = (q ⟨0, by decide⟩).val :=
  dot_S2048x2048_S1024x2048_S2048x1024_1_1_0_0_n_n.lhsIdx_val_of_single rfl j q
theorem rhs_row (j : S2048x1024.Idx) (q : dot_S2048x2048_S1024x2048_S2048x1024_1_1_0_0_n_n.contr.Idx) :
    (dot_S2048x2048_S1024x2048_S2048x1024_1_1_0_0_n_n.rhsIdx j q 0).val = (j 1).val := by
  unfold DotDims.rhsIdx
  rw [dif_neg (show ¬(0 : Fin S1024x2048.rank) ∈ dot_S2048x2048_S1024x2048_S2048x1024_1_1_0_0_n_n.rhsBatch by decide), dif_pos (show (0 : Fin S1024x2048.rank) ∈ dot_S2048x2048_S1024x2048_S2048x1024_1_1_0_0_n_n.rhsNonContracting by decide)]
  rfl
theorem rhs_col (j : S2048x1024.Idx) (q : dot_S2048x2048_S1024x2048_S2048x1024_1_1_0_0_n_n.contr.Idx) :
    (dot_S2048x2048_S1024x2048_S2048x1024_1_1_0_0_n_n.rhsIdx j q 1).val = (q ⟨0, by decide⟩).val :=
  dot_S2048x2048_S1024x2048_S2048x1024_1_1_0_0_n_n.rhsIdx_val_of_single rfl j q

/-- One accumulation step at entry (p, q): the old entry plus row p of x against row q of w. -/
theorem acc_step (x : Vec Ideal S2048x2048 .bf16) (w : Vec Ideal S1024x2048 .bf16) (acc : Vec Ideal S2048x1024 .f32)
    (p : Fin 2048) (q : Fin 1024) :
    k0_pay2 x w acc (ix2 p q) = acc (ix2 p q) + ∑ k : Fin 2048, x (ix2 p k) * w (ix2 q k) := by
  unfold k0_pay2
  simp only [shapeCast_self]
  show acc (ix2 p q) + FloatOps.matmul (F := Ideal) dot_S2048x2048_S1024x2048_S2048x1024_1_1_0_0_n_n none x w (constant (F := Ideal) S2048x1024 .f32 0x00000000#32) (ix2 p q) = _
  rw [Ideal.matmul_constant_zero_apply, ← Equiv.sum_comp (contrEquiv1 dot_S2048x2048_S1024x2048_S2048x1024_1_1_0_0_n_n 2048 rfl rfl).symm]
  refine congrArg (acc (ix2 p q) + ·) (Finset.sum_congr rfl fun k _ => ?_)
  have hk := contrEquiv1_symm_val dot_S2048x2048_S1024x2048_S2048x1024_1_1_0_0_n_n 2048 rfl rfl k
  have el : dot_S2048x2048_S1024x2048_S2048x1024_1_1_0_0_n_n.lhsIdx (ix2 p q) ((contrEquiv1 dot_S2048x2048_S1024x2048_S2048x1024_1_1_0_0_n_n 2048 rfl rfl).symm k) = ix2 p k := funext fun a => Fin.ext (by
    match a with
    | ⟨0, _⟩ => exact lhs_row _ _
    | ⟨1, _⟩ => exact (lhs_col _ _).trans hk)
  have er : dot_S2048x2048_S1024x2048_S2048x1024_1_1_0_0_n_n.rhsIdx (ix2 p q) ((contrEquiv1 dot_S2048x2048_S1024x2048_S2048x1024_1_1_0_0_n_n 2048 rfl rfl).symm k) = ix2 q k := funext fun a => Fin.ext (by
    match a with
    | ⟨0, _⟩ => exact rhs_row _ _
    | ⟨1, _⟩ => exact (rhs_col _ _).trans hk)
  rw [el, er]

/-- The last step's output at entry (p, q): the accumulated entry plus entry q of the bias row. -/
theorem add_bias (acc : Vec Ideal S2048x1024 .f32) (β : Vec Ideal S1x1024 .f32) (p : Fin 2048) (q : Fin 1024) :
    k0_pay3 acc β (ix2 p q) = acc (ix2 p q) + β (ix2 0 q) := by
  unfold k0_pay3
  simp only [shapeCast_self]
  show acc (ix2 p q) + broadcastTo S2048x1024 β broadcasts_S1x1024_S2048x1024 (ix2 p q) = _
  rw [broadcastTo_apply β broadcasts_S1x1024_S2048x1024 (ix2 p q) (ix2 0 q) (fun a => by
    match a with
    | ⟨0, _⟩ => rfl
    | ⟨1, _⟩ => rfl)]

end Cert.KernelIdeal.Payload

end
-- ==== Proof.Entry.lean ====
/-
  What the kernel's three input windows read from, when the grid starts.

  Before the grid the program prepares three arrays from its arguments X, W, b:
    * X with its float format changed — on the extended reals, X itself;
    * "1 where W > 0, else 0", entry by entry — the binarised W;
    * b reshaped from [4096] to a [1, 4096] row — entry (0, o) is b[o].
-/
import proofs.«153271_j21861383537186_2_alg».proof.Proof.Gen.KernelIdeal.Frame
import proofs.«153271_j21861383537186_2_alg».proof.Proof.BinLinear
import Idealize.ShloMosaic.Lib.Pipeline.Value
import Idealize.ShloMosaic.Lib.ValueIdx
import Idealize.ShloMosaic.Lib.StableHlo.Run
import Idealize.ShloMosaic.Lib.IdealHost
import Idealize.ShloMosaic.PureOps.Ideal.Laws

noncomputable section

namespace Cert.KernelIdeal.Entry

open Idealize.ShloMosaic Idealize.ShloMosaic.TcCoe Idealize.SL.Sem Idealize.ShloMosaic.ValueIdx
open Idealize.ShloMosaic.StableHlo
open Cert.KernelIdeal Cert.KernelIdeal.Gen Cert.Bridge

variable (m : (ℓ : Loc nD τ sig) → Buf (Elt Ideal) ℓ)

/-- The first window's array is X. -/
theorem arr_x (c : Dev nD) (j : S8192x4096.Idx) :
    V m c main_v0 j = m ((c : Thread nD τ).loc main_arg0) j := by
  have e : (V m c main_v0 : S8192x4096.Idx → EReal)
      = (truncf (F := Ideal) (s := S8192x4096) (φ := .f32) .bf16 (m ((c : Thread nD τ).loc main_arg0)) bitsLt_bf16_f32 : S8192x4096.Idx → EReal) := by
    dsimp only [Gen.V]
    simp only [Gen.hostOps0, Gen.hostOps0_1, Gen.hostOps0_2, List.flatten_cons, List.flatten_nil, List.append_nil,
      List.cons_append, List.nil_append]
    after_results <;> rfl
  rw [e]
  rfl

/-- The second window's array is the binarised W. -/
theorem arr_w (c : Dev nD) (o i : Fin 4096) :
    V m c main_v3 (ix2 o i) = bin (m ((c : Thread nD τ).loc main_arg1) (ix2 o i)) := by
  have e : (V m c main_v3 : S4096x4096.Idx → EReal)
      = (select (cmpf (F := Ideal) (s := S4096x4096) (φ := .f32) .ogt (m ((c : Thread nD τ).loc main_arg1))
            (broadcastInDim S4096x4096 ![] bcast_S_S4096x4096 (constant (F := Ideal) S_ .f32 0x00000000#32)))
          (broadcastInDim S4096x4096 ![] bcast_S_S4096x4096 (constant (F := Ideal) S_ .bf16 0x3F80#16))
          (broadcastInDim S4096x4096 ![] bcast_S_S4096x4096 (constant (F := Ideal) S_ .bf16 0x0000#16)) : S4096x4096.Idx → EReal) := by
    dsimp only [Gen.V]
    simp only [Gen.hostOps0, Gen.hostOps0_1, Gen.hostOps0_2, List.flatten_cons, List.flatten_nil, List.append_nil,
      List.cons_append, List.nil_append]
    after_results <;> rfl
  rw [e, select_apply, cmpf_apply]
  simp only [broadcastInDim_apply ![] bcast_S_S4096x4096 _ (ix2 o i) ix0 (fun a => a.elim0), constant_apply,
    Ideal.cmpf_def, Ideal.ofBits_zero_f32, Ideal.ofBits_one_bf16, Ideal.ofBits_zero_bf16]
  exact select_gt_eq_bin _

/-- The third window's array is b as a row. -/
theorem arr_b (c : Dev nD) (o : Fin 4096) :
    V m c main_v4 (ix2 (0 : Fin 1) o) = m ((c : Thread nD τ).loc main_arg2) (ix1 o) := by
  have e : (V m c main_v4 : S1x4096.Idx → EReal)
      = (shapeCast S1x4096 (m ((c : Thread nD τ).loc main_arg2)) shapeCasts_S4096_S1x4096 : S1x4096.Idx → EReal) := by
    dsimp only [Gen.V]
    simp only [Gen.hostOps0, Gen.hostOps0_1, Gen.hostOps0_2, List.flatten_cons, List.flatten_nil, List.append_nil,
      List.cons_append, List.nil_append]
    after_results <;> rfl
  rw [e]
  refine shapeCast_apply _ shapeCasts_S4096_S1x4096 (ix2 (0 : Fin 1) o) (ix1 o) ?_
  rw [Shape.rowMajor_val_one, Shape.rowMajor_val_two]
  show o.val = 0 * 4096 + o.val
  omega

end Cert.KernelIdeal.Entry

end
-- ==== Proof.KernelValue.lean ====
/-
  The kernel's result array is the binarised linear layer.

  The grid is 4 x 4 x 2: point t stands for (row block t / 8, column block (t / 2) mod 4, step t mod 2).
  The output block (2048 rows, 1024 columns) of a (row block, column block) pair is written back at the pair's
  last step, the odd t.  At that point the output block holds, at entry (p, q),

      ((0 + Σ_{k<2048} x₀(p,k)·w₀(q,k)) + Σ_{k<2048} x₁(p,k)·w₁(q,k)) + β(0,q)

  with x₀, w₀ the blocks of X and of the binarised W read at the pair's first step (features 0 … 2047), x₁, w₁ those
  read at its last step (features 2048 … 4095) and β the block of the bias row.  Reading the blocks through their
  index maps, this is entry (2048·(t/8) + p, 1024·((t/2) mod 4) + q) of the layer, the two half sums joined by
  associativity.  The sixteen output blocks tile the [8192, 4096] array, so after the run the array is the layer.
-/
import proofs.«153271_j21861383537186_2_alg».proof.Proof.Gen.KernelIdeal.Value
import proofs.«153271_j21861383537186_2_alg».proof.Proof.BinLinear
import proofs.«153271_j21861383537186_2_alg».proof.Proof.Pieces
import proofs.«153271_j21861383537186_2_alg».proof.Proof.Payload
import proofs.«153271_j21861383537186_2_alg».proof.Proof.Entry

noncomputable section

namespace Cert.KernelIdeal.Whole

open Idealize.ShloMosaic Idealize.ShloMosaic.TcCoe Idealize.SL.Sem Idealize.ShloMosaic.ValueIdx
open Idealize.ShloMosaic.Pipeline (Dat)
open Cert.KernelIdeal Cert.KernelIdeal.Gen Cert.Bridge

variable (m : (ℓ : Loc nD τ sig) → Buf (Elt Ideal) ℓ) (ρ : Dev nD → PrngReg)

/-! ## One output entry from the blocks, over plain vectors -/

/-- If the four operand blocks and the bias block hold the right entries of X, the binarised W and b, then the
    last step's output at (p, q) is the layer's entry (n, o). -/
theorem block_entry (X : (⟨2, ![8192, 4096]⟩ : Shape).Idx → EReal) (W : (⟨2, ![4096, 4096]⟩ : Shape).Idx → EReal)
    (b : (⟨1, ![4096]⟩ : Shape).Idx → EReal)
    (x x' : Vec Ideal S2048x2048 .bf16) (w w' : Vec Ideal S1024x2048 .bf16) (β : Vec Ideal S1x1024 .f32)
    (n : Fin 8192) (o : Fin 4096) (p : Fin 2048) (q : Fin 1024)
    (hx : ∀ k : Fin 2048, x (ix2 p k) = X (ix2 n (lo k)))
    (hx' : ∀ k : Fin 2048, x' (ix2 p k) = X (ix2 n (hi k)))
    (hw : ∀ k : Fin 2048, w (ix2 q k) = bin (W (ix2 o (lo k))))
    (hw' : ∀ k : Fin 2048, w' (ix2 q k) = bin (W (ix2 o (hi k))))
    (hβ : β (ix2 (0 : Fin 1) q) = b (ix1 o)) :
    k0_pay3 (k0_pay2 x' w' (k0_pay2 x w (k0_pay1 (F := Ideal)))) β (ix2 p q) = entry X W b n o := by
  rw [Payload.add_bias, Payload.acc_step, Payload.acc_step, Payload.zero_block]
  simp only [hx, hx', hw, hw', hβ]
  exact two_steps (fun i => X (ix2 n i) * bin (W (ix2 o i))) (b (ix1 o))

/-! ## The index maps, decided over the 32 grid points -/

theorem idx_facts : ∀ t : Fin cfg0.N,
    win0_0.index t (0 : Fin 2) = t.val / 8 ∧ win0_0.index t (1 : Fin 2) = t.val % 2
    ∧ win0_1.index t (0 : Fin 2) = t.val / 2 % 4 ∧ win0_1.index t (1 : Fin 2) = t.val % 2
    ∧ win0_2.index t (0 : Fin 2) = 0 ∧ win0_2.index t (1 : Fin 2) = t.val / 2 % 4
    ∧ win0_3.index t (0 : Fin 2) = t.val / 8 ∧ win0_3.index t (1 : Fin 2) = t.val / 2 % 4 :=
  (by decide +kernel : ∀ t : Fin grid0.N, _)

/-! ## The input blocks, entry by entry -/

/-- The block of X at point t: rows from 2048·(t/8), features from 2048·(t mod 2). -/
theorem blk_x (c : Dev nD) (t : Fin cfg0.N) (p k : Fin 2048) (n : Fin 8192) (i : Fin 4096)
    (hn : n.val = 2048 * (t.val / 8) + p.val) (hi : i.val = 2048 * (t.val % 2) + k.val) :
    (iblk m c 0 t : Vec Ideal S2048x2048 .bf16) (ix2 p k) = m ((c : Thread nD τ).loc main_arg0) (ix2 n i) := by
  unfold iblk
  rw [View.read_apply]
  show V m c main_v0 (((cfg0.win 0).blk t).view.emb (ix2 p k)) = _
  rw [Entry.arr_x]
  refine congrArg _ (funext fun a => Fin.ext ?_)
  obtain ⟨e0, e1, -⟩ := idx_facts t
  match a with
  | ⟨0, _⟩ => show win0_0.index t (0 : Fin 2) * 2048 + 1 * p.val = n.val; rw [e0, hn]; omega
  | ⟨1, _⟩ => show win0_0.index t (1 : Fin 2) * 2048 + 1 * k.val = i.val; rw [e1, hi]; omega

/-- The block of the binarised W at point t: rows from 1024·((t/2) mod 4), features from 2048·(t mod 2). -/
theorem blk_w (c : Dev nD) (t : Fin cfg0.N) (q : Fin 1024) (k : Fin 2048) (o i : Fin 4096)
    (ho : o.val = 1024 * (t.val / 2 % 4) + q.val) (hi : i.val = 2048 * (t.val % 2) + k.val) :
    (iblk m c 1 t : Vec Ideal S1024x2048 .bf16) (ix2 q k) = bin (m ((c : Thread nD τ).loc main_arg1) (ix2 o i)) := by
  unfold iblk
  rw [View.read_apply]
  show V m c main_v3 (((cfg0.win 1).blk t).view.emb (ix2 q k)) = _
  rw [← Entry.arr_w m c o i]
  refine congrArg _ (funext fun a => Fin.ext ?_)
  obtain ⟨-, -, e2, e3, -⟩ := idx_facts t
  match a with
  | ⟨0, _⟩ => show win0_1.index t (0 : Fin 2) * 1024 + 1 * q.val = o.val; rw [e2, ho]; omega
  | ⟨1, _⟩ => show win0_1.index t (1 : Fin 2) * 2048 + 1 * k.val = i.val; rw [e3, hi]; omega

/-- The block of the bias row at point t: columns from 1024·((t/2) mod 4). -/
theorem blk_b (c : Dev nD) (t : Fin cfg0.N) (q : Fin 1024) (o : Fin 4096)
    (ho : o.val = 1024 * (t.val / 2 % 4) + q.val) :
    (iblk m c 2 t : Vec Ideal S1x1024 .f32) (ix2 (0 : Fin 1) q) = m ((c : Thread nD τ).loc main_arg2) (ix1 o) := by
  unfold iblk
  rw [View.read_apply]
  show V m c main_v4 (((cfg0.win 2).blk t).view.emb (ix2 (0 : Fin 1) q)) = _
  rw [← Entry.arr_b m c o]
  refine congrArg _ (funext fun a => Fin.ext ?_)
  obtain ⟨-, -, -, -, e4, e5, -⟩ := idx_facts t
  match a with
  | ⟨0, _⟩ => show win0_2.index t (0 : Fin 2) * 1 + 1 * 0 = 0; rw [e4]
  | ⟨1, _⟩ => show win0_2.index t (1 : Fin 2) * 1024 + 1 * q.val = o.val; rw [e5, ho]; omega

/-! ## What the scratch and the output block hold -/

/-- After a first step the scratch holds zero + x · wᵀ of that step's blocks. -/
theorem scratch_even (c : Dev nD) (t : Fin cfg0.N) (h0 : t.val % 2 = 0) (h1 : ¬t.val % 2 = 1) :
    (outsAt0 m c t.val t.isLt).2 = k0_pay2 (iblk m c 0 t) (iblk m c 1 t) (k0_pay1 (F := Ideal)) := by
  rw [outsAt0_A m c t h0 h1]
  dsimp only
  exact Pieces.scratch_first (F := Ideal) c (grid0.coords t) (ms0_0 t) (hs0_0 t) (ms0_1 t) (hs0_1 t) (ms0_2 t) (hs0_2 t)
    (ms0_3 t) (hs0_3 t) scM0_0 (Memref.isWhole_whole _) ((hcond0_0 t).mpr h0) (fun h => h1 ((hcond0_1 t).mp h))
    (iblk m c 0 t) (iblk m c 1 t) (iblk m c 2 t)

/-- After a last step the output block holds (what the step before left + x · wᵀ) + bias row. -/
theorem out_odd (c : Dev nD) (t : Fin cfg0.N) (h0 : ¬t.val % 2 = 0) (h1 : t.val % 2 = 1) :
    (outsAt0 m c t.val t.isLt).1
      = k0_pay3 (k0_pay2 (iblk m c 0 t) (iblk m c 1 t)
          (outsAt0 m c (t.val - 1) (Nat.lt_of_le_of_lt (Nat.sub_le _ _) t.isLt)).2) (iblk m c 2 t) := by
  rw [outsAt0_B m c t h0 h1]
  dsimp only
  exact Pieces.out_last (F := Ideal) c (grid0.coords t) (ms0_0 t) (hs0_0 t) (ms0_1 t) (hs0_1 t) (ms0_2 t) (hs0_2 t)
    (ms0_3 t) (hs0_3 t) scM0_0 (Memref.isWhole_whole _) (fun h => h0 ((hcond0_0 t).mp h)) ((hcond0_1 t).mpr h1)
    (iblk m c 0 t) (iblk m c 1 t) (iblk m c 2 t)
    (outsAt0 m c (t.val - 1) (Nat.lt_of_le_of_lt (Nat.sub_le _ _) t.isLt)).2

/-! ## What a last step writes back -/

/-- The block an odd point writes back is that block of the layer. -/
theorem flushed_eq (c : Dev nD) (t : Fin cfg0.N) (hf : (cfg0.win 3).flush t = true) :
    (dats m 0 c).flushed 3 t = ((cfg0.win 3).blk t).view.read (Elt Ideal)
      (binLinear (m ((c : Thread nD τ).loc main_arg0)) (m ((c : Thread nD τ).loc main_arg1))
        (m ((c : Thread nD τ).loc main_arg2))) := by
  have hN : t.val < 32 := lt_of_lt_of_eq t.isLt (show cfg0.N = 32 from N_0)
  have h1 : t.val % 2 = 1 := (flush0_3 t).mp hf
  have h0 : ¬t.val % 2 = 0 := by omega
  have hp : t.val - 1 < cfg0.N := Nat.lt_of_le_of_lt (Nat.sub_le _ _) t.isLt
  rw [Value.flushed3, out_odd m c t h0 h1]
  rw [show (outsAt0 m c (t.val - 1) hp).2 = _ from
    scratch_even m c ⟨t.val - 1, hp⟩ (by show (t.val - 1) % 2 = 0; omega) (by show ¬(t.val - 1) % 2 = 1; omega)]
  show (k0_pay3 (k0_pay2 (iblk m c 0 t) (iblk m c 1 t)
      (k0_pay2 (iblk m c 0 ⟨t.val - 1, hp⟩) (iblk m c 1 ⟨t.val - 1, hp⟩) (k0_pay1 (F := Ideal)))) (iblk m c 2 t)
      : S2048x1024.Idx → EReal) = _
  funext y
  obtain ⟨p, q, rfl⟩ : ∃ (p : Fin 2048) (q : Fin 1024), y = ix2 p q := ⟨y 0, y 1, eq_ix2 y⟩
  rw [View.read_apply]
  obtain ⟨-, -, -, -, -, -, e6, e7⟩ := idx_facts t
  have hn : 2048 * (t.val / 8) + p.val < 8192 := by have := p.isLt; omega
  have ho : 1024 * (t.val / 2 % 4) + q.val < 4096 := by have := q.isLt; omega
  refine (block_entry (m ((c : Thread nD τ).loc main_arg0)) (m ((c : Thread nD τ).loc main_arg1))
    (m ((c : Thread nD τ).loc main_arg2))
    (iblk m c 0 ⟨t.val - 1, hp⟩) (iblk m c 0 t) (iblk m c 1 ⟨t.val - 1, hp⟩) (iblk m c 1 t) (iblk m c 2 t)
    ⟨2048 * (t.val / 8) + p.val, hn⟩ ⟨1024 * (t.val / 2 % 4) + q.val, ho⟩ p q
    (fun k => blk_x m c ⟨t.val - 1, hp⟩ p k _ _
      (by show 2048 * (t.val / 8) + p.val = 2048 * ((t.val - 1) / 8) + p.val; omega)
      (by show k.val = 2048 * ((t.val - 1) % 2) + k.val; omega))
    (fun k => blk_x m c t p k _ _ rfl (by show 2048 + k.val = 2048 * (t.val % 2) + k.val; omega))
    (fun k => blk_w m c ⟨t.val - 1, hp⟩ q k _ _
      (by show 1024 * (t.val / 2 % 4) + q.val = 1024 * ((t.val - 1) / 2 % 4) + q.val; omega)
      (by show k.val = 2048 * ((t.val - 1) % 2) + k.val; omega))
    (fun k => blk_w m c t q k _ _ rfl (by show 2048 + k.val = 2048 * (t.val % 2) + k.val; omega))
    (blk_b m c t q _ rfl)).trans ?_
  show entry _ _ _ _ _ = entry _ _ _ ((((cfg0.win 3).blk t).view.emb (ix2 p q)) 0) ((((cfg0.win 3).blk t).view.emb (ix2 p q)) 1)
  congr 1
  · exact Fin.ext (by
      show 2048 * (t.val / 8) + p.val = win0_3.index t (0 : Fin 2) * 2048 + 1 * p.val
      rw [e6]; omega)
  · exact Fin.ext (by
      show 1024 * (t.val / 2 % 4) + q.val = win0_3.index t (1 : Fin 2) * 1024 + 1 * q.val
      rw [e7]; omega)

/-! ## The sixteen output blocks tile the array -/

/-- An index of the array is in point t's output block iff each coordinate is in the block's range. -/
theorem mem_blk (t : Fin cfg0.N) (i : S8192x4096.Idx) :
    i ∈ ((cfg0.win 3).blk t).view.set ↔ ∀ a : Fin 2, win0_3.index t a * S2048x1024.size a ≤ (i a).val
      ∧ (i a).val < win0_3.index t a * S2048x1024.size a + S2048x1024.size a := by
  show i ∈ ((View.whole main_v5).slice (win0_3.rect t)).set ↔ _
  rw [View.set_slice_whole, Rect.mem_set_unit]
  exact Iff.rfl

/-- Entry (n, o) lies in the block written back at the last step of row block n / 2048, column block o / 1024. -/
theorem cover (i : S8192x4096.Idx) :
    ∃ t : Fin cfg0.N, (cfg0.win 3).flush t = true ∧ i ∈ ((cfg0.win 3).blk t).view.set := by
  have hi0 : (i 0).val < 8192 := idx2_lt0 i
  have hi1 : (i 1).val < 4096 := idx2_lt1 i
  have hlt : 8 * ((i 0).val / 2048) + 2 * ((i 1).val / 1024) + 1 < cfg0.N := by
    rw [show cfg0.N = 32 from N_0]; omega
  refine ⟨⟨8 * ((i 0).val / 2048) + 2 * ((i 1).val / 1024) + 1, hlt⟩, (flush0_3 _).mpr (by
    show (8 * ((i 0).val / 2048) + 2 * ((i 1).val / 1024) + 1) % 2 = 1; omega), ?_⟩
  rw [mem_blk]
  obtain ⟨-, -, -, -, -, -, e6, e7⟩ := idx_facts ⟨8 * ((i 0).val / 2048) + 2 * ((i 1).val / 1024) + 1, hlt⟩
  intro a
  match a with
  | ⟨0, _⟩ =>
    show win0_3.index ⟨8 * ((i 0).val / 2048) + 2 * ((i 1).val / 1024) + 1, hlt⟩ (0 : Fin 2) * 2048 ≤ (i 0).val
      ∧ (i 0).val < win0_3.index ⟨8 * ((i 0).val / 2048) + 2 * ((i 1).val / 1024) + 1, hlt⟩ (0 : Fin 2) * 2048 + 2048
    rw [e6]
    show (8 * ((i 0).val / 2048) + 2 * ((i 1).val / 1024) + 1) / 8 * 2048 ≤ (i 0).val
      ∧ (i 0).val < (8 * ((i 0).val / 2048) + 2 * ((i 1).val / 1024) + 1) / 8 * 2048 + 2048
    omega
  | ⟨1, _⟩ =>
    show win0_3.index ⟨8 * ((i 0).val / 2048) + 2 * ((i 1).val / 1024) + 1, hlt⟩ (1 : Fin 2) * 1024 ≤ (i 1).val
      ∧ (i 1).val < win0_3.index ⟨8 * ((i 0).val / 2048) + 2 * ((i 1).val / 1024) + 1, hlt⟩ (1 : Fin 2) * 1024 + 1024
    rw [e7]
    show (8 * ((i 0).val / 2048) + 2 * ((i 1).val / 1024) + 1) / 2 % 4 * 1024 ≤ (i 1).val
      ∧ (i 1).val < (8 * ((i 0).val / 2048) + 2 * ((i 1).val / 1024) + 1) / 2 % 4 * 1024 + 1024
    omega

/-! ## The array after the run, and the run -/

/-- After the run the result array is the layer of the three arguments. -/
theorem final (c : Dev nD) : (dats m 0 c).arrAt 3 cfg0.N
    = binLinear (m ((c : Thread nD τ).loc main_arg0)) (m ((c : Thread nD τ).loc main_arg1))
        (m ((c : Thread nD τ).loc main_arg2)) :=
  (dats m 0 c).arrAt_eq_of_cover 3 _ (fun t hf => flushed_eq m c t hf) cover

/-- Every weakly fair execution of the kernel's program ends with the result array at the layer of the arguments,
    the arguments unchanged. -/
theorem run : θ_run defs (onTc (τ := τ) (main (F := Ideal))) ⟨m, fun _ => 0, ρ⟩ fun r => ∀ c : Dev nD,
      r.2.mem ((c : Thread nD τ).loc main_v5)
        = binLinear (m ((c : Thread nD τ).loc main_arg0)) (m ((c : Thread nD τ).loc main_arg1))
            (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Whole

end
-- ==== Proof.RefValue.lean ====
/-
  The reference computes the same layer.

  Its program is  sign (max 0 W),  a transpose,  X · (that)  contracting X's axis 1 with the transposed array's
  axis 0,  then  + b  broadcast along the rows.  Read at entry (n, o):

      Σ_{i<4096} X(n, i) · sign (max 0 W(o, i))  +  b(o),

  the transpose turning (i, o) back into (o, i) — which is the specification word for word.
-/
import proofs.«153271_j21861383537186_2_alg».proof.Proof.Gen.ReferenceIdeal.Read
import proofs.«153271_j21861383537186_2_alg».proof.Proof.BinLinear

noncomputable section

namespace Cert.ReferenceIdeal.RefValue

open Idealize.ShloMosaic Idealize.ShloMosaic.ValueIdx
open Cert.ReferenceIdeal Cert.ReferenceIdeal.Read Cert.Bridge

/-- The reference's result, as a function of its three arguments, is the binarised linear layer. -/
theorem ref_is_layer (X : S8192x4096.Idx → EReal) (W : S4096x4096.Idx → EReal) (b : S4096.Idx → EReal) :
    val_main_v6 (F := Ideal) X W b = binLinear X W b := by
  funext j
  obtain ⟨n, o, rfl⟩ : ∃ (n : Fin 8192) (o : Fin 4096), j = ix2 n o := ⟨j 0, j 1, eq_ix2 j⟩
  have e1 : ∀ k : Fin 4096, lidx_main_v3 (ix2 n o) k = ix2 n k := fun k => funext fun a => Fin.ext (by
    match a with
    | ⟨0, _⟩ => rfl
    | ⟨1, _⟩ => rfl)
  have e2 : ∀ k : Fin 4096, idx_main_v2 (ridx_main_v3 (ix2 n o) k) = ix2 o k := fun k => funext fun a => Fin.ext (by
    match a with
    | ⟨0, _⟩ => rfl
    | ⟨1, _⟩ => rfl)
  have e3 : idx_main_v4 (idx_main_v5 (ix2 n o)) = ix1 o := funext fun a => Fin.ext (by
    match a with
    | ⟨0, _⟩ => rfl)
  rw [val_main_v6_apply, val_main_v3_apply, val_main_v5_apply, val_main_v4_apply]
  simp only [val_main_v2_apply, e1, e2, e3, Ideal.addf_def]
  show _ = (∑ i : Fin 4096, X (ix2 n i) * bin (W (ix2 o i))) + b (ix1 o)
  refine congrArg (· + b (ix1 o)) (Finset.sum_congr rfl fun k _ => congrArg (X (ix2 n k) * ·) ?_)
  rw [val_main_v1_apply, val_main_v0_apply, val_main_call0_v1_apply, val_main_call0_v0_apply, val_main_cst_apply]
  simp only [Ideal.hostUnary_sign_def, Ideal.maximumf_def, Ideal.ofBits_def, Ideal.ofBits_zero_f32]
  rfl

end Cert.ReferenceIdeal.RefValue

end
-- ==== Proof.lean ====
/-
  A linear layer with binarised weights:  out[n, o] = Σ_{i<4096} X[n, i] · bin(W[o, i]) + b[o],  bin w = 1 if w > 0 else 0,
  for X : [8192, 4096], W : [4096, 4096] (stored [out, in]), b : [4096], over the extended reals.

  The kernel prepares X, the binarised W ("1 where W > 0, else 0") and b as a row, then runs a 4 x 4 x 2 grid:
  for each 2048 x 1024 output block it accumulates the product over the input features in two steps of 2048 — from a
  zero block at the first step — and at the second step adds the bias row and writes the block back.  The reference
  computes sign (max 0 W), transposes it, takes one matrix product over all 4096 features and adds b.

  Why they agree, entry by entry:
    * "1 where w > 0, else 0" and sign (max 0 w) are one function on every extended real (both infinities included);
    * ((0 + Σ over the first 2048 features) + Σ over the last 2048) + b[o]  is  (Σ over all 4096) + b[o]  by
      associativity of + alone;
    * the sixteen output blocks tile the result array, and each input block read through its index map is the
      matching rectangle of X, of the binarised W, of the bias row.
  Nothing in this needs the entries to be finite, so the precondition is never opened.

  The three frame claims: the kernel's two are its generated frames; the reference has no kernel, and its frame is its
  run with the result dropped.  The idealization rewrote nothing, so that claim is trivial.
-/
import proofs.«153271_j21861383537186_2_alg».proof.Defs
import proofs.«153271_j21861383537186_2_alg».proof.Proof.Gen.Kernel
import proofs.«153271_j21861383537186_2_alg».proof.Proof.Gen.Kernel.Skeleton
import proofs.«153271_j21861383537186_2_alg».proof.Proof.Gen.Kernel.Launch
import proofs.«153271_j21861383537186_2_alg».proof.Proof.Gen.Kernel.Points
import proofs.«153271_j21861383537186_2_alg».proof.Proof.Gen.Kernel.Frame
import proofs.«153271_j21861383537186_2_alg».proof.Proof.Gen.KernelIdeal
import proofs.«153271_j21861383537186_2_alg».proof.Proof.Gen.KernelIdeal.Skeleton
import proofs.«153271_j21861383537186_2_alg».proof.Proof.Gen.KernelIdeal.Launch
import proofs.«153271_j21861383537186_2_alg».proof.Proof.Gen.KernelIdeal.Points
import proofs.«153271_j21861383537186_2_alg».proof.Proof.Gen.KernelIdeal.Frame
import proofs.«153271_j21861383537186_2_alg».proof.Proof.Gen.ReferenceIdeal
import proofs.«153271_j21861383537186_2_alg».proof.Proof.Gen.Pre_finite_inputs
import proofs.«153271_j21861383537186_2_alg».proof.Proof.Gen.KernelIdeal.Value
import proofs.«153271_j21861383537186_2_alg».proof.Proof.Gen.ReferenceIdeal.Run
import proofs.«153271_j21861383537186_2_alg».proof.Proof.Gen.ReferenceIdeal.Read
import proofs.«153271_j21861383537186_2_alg».proof.Proof.KernelValue
import proofs.«153271_j21861383537186_2_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

/-- The reference's frame: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs end with the result array at the binarised linear layer of arguments that agree. -/
theorem algebraic : Cert.algebraic_KernelIdeal_ReferenceIdeal := by
  intro m ρ m' ρ' _ hagree
  refine ⟨fun c => Cert.Bridge.binLinear
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_is_layer, (hagree c).1,
    (hagree c).2.1, (hagree c).2.2]

theorem claim : Cert.Claim := ⟨Cert.Kernel.Gen.facts, Cert.KernelIdeal.Gen.facts, Cert.ReferenceIdeal.Gen.facts, Cert.Pre_finite_inputs.Gen.facts,
  frame_kernel, frame_kernel_ideal, frame_reference_ideal, preserves, algebraic⟩

end Cert.Proof

end
